-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32x32 .f32) (main_arg9 : FVec F S32x32 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32x32 .f32 := Host.absf main_arg9
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  main_v43

def fn_part1 {F : FTy → Type} [FloatOps F] (main_arg5 : FVec F S32 .f32) (main_arg6 : FVec F S32x32 .f32) (main_arg7 : FVec F S32 .f32) (main_arg8 : FVec F S32x32 .f32) (main_arg9 : FVec F S32x32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x1600000 32) (main_arg2 : FVec F S100000x32 .f32) (main_arg3 : FVec F S100000x32 .f32) (main_arg4 : FVec F S32x32 .f32) (main_arg5 : FVec F S32 .f32) (main_arg6 : FVec F S32x32 .f32) (main_arg7 : FVec F S32 .f32) (main_arg8 : FVec F S32x32 .f32) (main_arg9 : FVec F S32x32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg2
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S100000x32 .f32 := Host.absf main_arg3
  let main_cst_2 : FVec F S_ .f32 := constant S_ .f32 0x7F800000#32
  let main_v10 : FVec F S100000x32 .f32 := broadcastInDim S100000x32 ![] bcast_S_S100000x32 main_cst_2
  let main_v11 : IVec S100000x32 1 := cmpf .olt main_v9 main_v10
  let main_c_3 : IVec S_ 1 := constantI S_ 1 1#1
  let main_v12 : IVec S_ 1 := (fun x v => Host.reduce IntOp.andi x v reducesTo_S100000x32_S_d0_1 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 87
  | .vmem => 22
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S100000x32, .f32⟩
  | .hbm, ⟨3, _⟩ => ⟨S100000x32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32x32, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x32, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x32, .f32⟩
  | .hbm, ⟨60, _⟩ => ⟨S1700000x1, .f32⟩
  | .hbm, ⟨61, _⟩ => ⟨S1700000x32, .f32⟩
  | .hbm, ⟨62, _⟩ => ⟨S1700000x32, .f32⟩
  | .hbm, ⟨63, _⟩ => ⟨S_, .f32⟩
  | .hbm, ⟨64, _⟩ => ⟨S100000x32, .f32⟩
  | .hbm, ⟨65, _⟩ => ⟨S1700000x1, .i32⟩
  | .hbm, ⟨66, _⟩ => ⟨S100000x32, .f32⟩
  | .hbm, ⟨67, _⟩ => ⟨S1x32, .f32⟩
  | .hbm, ⟨68, _⟩ => ⟨S100000x32, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x32, .f32⟩
  | .hbm, ⟨78, _⟩ => ⟨S1700000x1, .f32⟩
  | .hbm, ⟨79, _⟩ => ⟨S1700000x32, .f32⟩
  | .hbm, ⟨80, _⟩ => ⟨S1700000x32, .f32⟩
  | .hbm, ⟨81, _⟩ => ⟨S_, .f32⟩
  | .hbm, ⟨82, _⟩ => ⟨S100000x32, .f32⟩
  | .hbm, ⟨83, _⟩ => ⟨S1700000x1, .i32⟩
  | .hbm, ⟨84, _⟩ => ⟨S100000x32, .f32⟩
  | .hbm, ⟨85, _⟩ => ⟨S1x32, .f32⟩
  | .hbm, ⟨86, _⟩ => ⟨S100000x32, .f32⟩
  | .local _ .vmem, ⟨0, _⟩ => ⟨S10000x32, .f32⟩
  | .local _ .vmem, ⟨1, _⟩ => ⟨S10000x32, .f32⟩
  | .local _ .vmem, ⟨2, _⟩ => ⟨S32x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S1x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | .local _ .vmem, ⟨18, _⟩ => ⟨S32x32, .f32⟩
  | .local _ .vmem, ⟨19, _⟩ => ⟨S32x32, .f32⟩
  | .local _ .vmem, ⟨20, _⟩ => ⟨S10000x32, .f32⟩
  | .local _ .vmem, ⟨21, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem6_0 : DmaSem sig := 20
abbrev cc2_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x32_S32x32_S10000x32_1_0_0_1_n_n_wf : DotDims.WF S10000x32 S32x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S100000x32.size a
  hwx2_3 : ∀ i : grid2.Coords, EltTy.bits .f32 = 32 ∨ (Rect.block (s := S100000x32) S10000x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x32.size a ≤ S100000x32.size a
  hwx2_6 : ∀ i : grid2.Coords, EltTy.bits .f32 = 32 ∨ (Rect.block (s := S100000x32) S10000x32.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S10000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S10000x32.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S10000x32.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩

abbrev nBuf : Space → Nat
  | .hbm => 130
  | .vmem => 0
  | .smem => 0
  | _ => 0

abbrev hbmTy0_0 (i : Nat) : BufTy := match i % 128 with
  | 0 => ⟨S100000x32, .f32⟩
  | 1 => ⟨S2x1600000, .i32⟩
  | 2 => ⟨S100000x32, .f32⟩
  | 3 => ⟨S100000x32, .f32⟩
  | 4 => ⟨S32x32, .f32⟩
  | 5 => ⟨S32, .f32⟩
  | 6 => ⟨S32x32, .f32⟩
  | 7 => ⟨S32, .f32⟩
  | 8 => ⟨S32x32, .f32⟩
  | 9 => ⟨S32x32, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S100000x32, .f32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x32, .f32⟩
  | 60 => ⟨S1700000x1, .f32⟩
  | 61 => ⟨S1700000x32, .f32⟩
  | 62 => ⟨S1700000x32, .f32⟩
  | 63 => ⟨S_, .f32⟩
  | 64 => ⟨S100000x32, .f32⟩
  | 65 => ⟨S1700000x1, .i32⟩
  | 66 => ⟨S100000x32, .f32⟩
  | 67 => ⟨S1x32, .f32⟩
  | 68 => ⟨S100000x32, .f32⟩
  | 69 => ⟨S100000x32, .f32⟩
  | 70 => ⟨S_, .f32⟩
  | 71 => ⟨S100000x32, .f32⟩
  | 72 => ⟨S100000x32, .f32⟩
  | 73 => ⟨S100000x32, .f32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x32, .f32⟩
  | 116 => ⟨S1700000x1, .f32⟩
  | 117 => ⟨S1700000x32, .f32⟩
  | 118 => ⟨S1700000x32, .f32⟩
  | 119 => ⟨S_, .f32⟩
  | 120 => ⟨S100000x32, .f32⟩
  | 121 => ⟨S1700000x1, .i32⟩
  | 122 => ⟨S100000x32, .f32⟩
  | 123 => ⟨S1x32, .f32⟩
  | 124 => ⟨S100000x32, .f32⟩
  | 125 => ⟨S100000x32, .f32⟩
  | 126 => ⟨S100000x32, .f32⟩
  | 127 => ⟨S100000x32, .f32⟩
  | _ => ⟨S100000x32, .f32⟩

abbrev hbmTy0_1 (i : Nat) : BufTy := match i % 128 with
  | 0 => ⟨S100000x32, .f32⟩
  | 1 => ⟨S100000x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v56 : Ref sig .tc := ⟨.hbm, 87, rfl⟩
abbrev main_c_13 : Ref sig .tc := ⟨.hbm, 88, rfl⟩
abbrev main_v57 : Ref sig .tc := ⟨.hbm, 89, rfl⟩
abbrev main_v58 : Ref sig .tc := ⟨.hbm, 90, rfl⟩
abbrev main_c_14 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_15 : Ref sig .tc := ⟨.hbm, 97, rfl⟩
abbrev main_v64 : Ref sig .tc := ⟨.hbm, 98, rfl⟩
abbrev main_v65 : Ref sig .tc := ⟨.hbm, 99, rfl⟩
abbrev main_c_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_c_18 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_19 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x32_S32x32_S100000x32_1_0_0_1_n_n_wf : DotDims.WF S100000x32 S32x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.WholeRun.lean ====
/-
  The idealized kernel's whole run, with every buffer of the TensorCore named.

  @main is eight segments: three stretches of host operations (building the edge lists with their self loops and the
  symmetric normalisation), the first matrix product as a pipelined region, the first aggregation on the host, the second
  region (bias, rectifier, second matrix product), the second aggregation, and the third region (bias and the two adapter
  products). The segments' contents at each boundary are the fold `W0 … W8` of the frame module. Here the regions' launch
  theorem is taken one step short of the frame claim: every weakly fair execution terminates, nothing faults, and in every
  final state EVERY unscoped buffer holds the last boundary's contents `W8`. The frame claim keeps of this only the ten
  argument arrays; the value claim needs the result array as well, so both are read off this one run.
-/
import proofs.«174616_j43267500540335_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates without a fault, and every unscoped buffer of every core ends at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run, keeping the result array (at the last boundary's contents, still unopened) and the ten argument
    arrays (as launched: no host operation and no region writes one). -/
theorem run_result : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)
    (run_all m ρ)

end Cert.KernelIdeal.WholeRun

end
-- ==== Proof.RowsTimes.lean ====
/-
  The one non-pointwise operation of this network, as a function of whole arrays.

  Every matrix product in both programs multiplies a tall array of rows, M × 32, by a square 32 × 32 weight array:
  entry (r, n) of the result is the sum over k < 32 of x(r, k) · w(k, n) on the extended reals. The kernel computes it a
  block of 10000 rows at a time inside its pipelined regions, the reference in one host operation over all 100000 rows;
  both are `rowsTimes`, because an entry depends on one row of `x` only.
-/
import Idealize.ShloMosaic.PureOps.Ideal
import Idealize.ShloMosaic.Lib.ValueIdx

noncomputable section

namespace Cert.Gcn

open Idealize.ShloMosaic

/-- The index (r, k) of an M × 32 array, from a row coordinate of that array and a k < 32. -/
abbrev rowAt {M : Nat} (i : (⟨2, ![M, 32]⟩ : Shape).Idx) (k : Fin 32) : (⟨2, ![M, 32]⟩ : Shape).Idx := fun a => match a with
  | ⟨0, _⟩ => ⟨(i 0).val, (i 0).isLt⟩
  | ⟨1, _⟩ => ⟨k.val, k.isLt⟩

/-- The index (k, n) of the 32 × 32 weight array, from a k < 32 and the column coordinate of an M × 32 index. -/
abbrev colAt {M : Nat} (i : (⟨2, ![M, 32]⟩ : Shape).Idx) (k : Fin 32) : (⟨2, ![32, 32]⟩ : Shape).Idx := fun a => match a with
  | ⟨0, _⟩ => ⟨k.val, k.isLt⟩
  | ⟨1, _⟩ => ⟨(i 1).val, (i 1).isLt⟩

/-- Rows times weights: entry (r, n) is the sum over k of x(r, k) · w(k, n), on the extended reals. -/
def rowsTimes {M : Nat} (x : (⟨2, ![M, 32]⟩ : Shape).Idx → EReal) (w : (⟨2, ![32, 32]⟩ : Shape).Idx → EReal) :
    (⟨2, ![M, 32]⟩ : Shape).Idx → EReal :=
  fun i => ∑ k : Fin 32, x (rowAt i k) * w (colAt i k)

/-- The bias, held as a 1 × 32 array, added to every row: entry (r, n) becomes a(r, n) + b(0, n). -/
def addRow {M : Nat} (a : (⟨2, ![M, 32]⟩ : Shape).Idx → EReal) (b : (⟨2, ![1, 32]⟩ : Shape).Idx → EReal) :
    (⟨2, ![M, 32]⟩ : Shape).Idx → EReal :=
  fun i => a i + b (ValueIdx.ix2 (0 : Fin 1) (⟨(i 1).val, (i 1).isLt⟩ : Fin 32))

/-- The rectifier: the larger of an entry and the zero word's value (kept as the word's reading, never evaluated: the same
    word stands on both sides). -/
def relu {M : Nat} (a : (⟨2, ![M, 32]⟩ : Shape).Idx → EReal) : (⟨2, ![M, 32]⟩ : Shape).Idx → EReal :=
  fun i => max (a i) (Ideal.ofBits .f32 0x00000000#32)

theorem rowsTimes_apply {M : Nat} (x : (⟨2, ![M, 32]⟩ : Shape).Idx → EReal) (w : (⟨2, ![32, 32]⟩ : Shape).Idx → EReal)
    (i : (⟨2, ![M, 32]⟩ : Shape).Idx) : rowsTimes x w i = ∑ k : Fin 32, x (rowAt i k) * w (colAt i k) := rfl

end Cert.Gcn

end
-- ==== Proof.Payloads.lean ====
/-
  What each kernel body stores, read at one entry of its 10000 × 32 block.

  At the ideal instance a narrowing to bf16 is the identity and a block product into a zero accumulator is the plain sum
  over the contracted axis, so the three bodies store, entry by entry:
    first:   rows × weights;
    second:  rectifier(rows + bias row) × weights;
    third:   (rows + bias row) + (rows' × weights' + rows'' × weights'').
-/
import proofs.«174616_j43267500540335_1_alg».proof.Proof.Gen.KernelIdeal.Skeleton
import proofs.«174616_j43267500540335_1_alg».proof.Proof.RowsTimes
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payloads

open Cert.KernelIdeal Cert.KernelIdeal.Gen Idealize.ShloMosaic Idealize.ShloMosaic.ValueIdx Cert.Gcn

/-- The block product's record: 10000 × 32 by 32 × 32, contracting the rows' second axis with the weights' first. -/
abbrev blockDot := dot_S10000x32_S32x32_S10000x32_1_0_0_1_n_n

theorem lhs_row (i : S10000x32.Idx) (q : blockDot.contr.Idx) : (blockDot.lhsIdx i q 0).val = (i 0).val := by
  unfold DotDims.lhsIdx
  rw [dif_neg (show ¬(0 : Fin S10000x32.rank) ∈ blockDot.lhsBatch by decide), dif_pos (show (0 : Fin S10000x32.rank) ∈ blockDot.lhsNonContracting by decide)]
  rfl
theorem lhs_contr (i : S10000x32.Idx) (q : blockDot.contr.Idx) : (blockDot.lhsIdx i q 1).val = (q ⟨0, by decide⟩).val :=
  blockDot.lhsIdx_val_of_single rfl i q
theorem rhs_contr (i : S10000x32.Idx) (q : blockDot.contr.Idx) : (blockDot.rhsIdx i q 0).val = (q ⟨0, by decide⟩).val :=
  blockDot.rhsIdx_val_of_single rfl i q
theorem rhs_col (i : S10000x32.Idx) (q : blockDot.contr.Idx) : (blockDot.rhsIdx i q 1).val = (i 1).val := by
  unfold DotDims.rhsIdx
  rw [dif_neg (show ¬(1 : Fin S32x32.rank) ∈ blockDot.rhsBatch by decide), dif_pos (show (1 : Fin S32x32.rank) ∈ blockDot.rhsNonContracting by decide)]
  rfl

/-- A block product into the zero accumulator is rows times weights: the contracted index runs over 32 values, and the
    operands are read at (r, k) and (k, n). -/
theorem blockProduct_apply (x : FVec Ideal S10000x32 .bf16) (w : FVec Ideal S32x32 .bf16) (j : S10000x32.Idx) :
    matmul blockDot none x w (constant S10000x32 .f32 0x00000000#32) j = rowsTimes x w j := by
  simp only [matmul]
  rw [Ideal.matmul_constant_zero_apply, rowsTimes_apply, ← Equiv.sum_comp (contrEquiv1 blockDot 32 rfl rfl).symm]
  refine Finset.sum_congr rfl fun k _ => ?_
  have hk := contrEquiv1_symm_val blockDot 32 rfl rfl k
  have el : blockDot.lhsIdx j ((contrEquiv1 blockDot 32 rfl rfl).symm k) = rowAt j k := funext fun a => Fin.ext (by
    match a with
    | ⟨0, _⟩ => exact lhs_row _ _
    | ⟨1, _⟩ => exact (lhs_contr _ _).trans hk)
  have er : blockDot.rhsIdx j ((contrEquiv1 blockDot 32 rfl rfl).symm k) = colAt j k := funext fun a => Fin.ext (by
    match a with
    | ⟨0, _⟩ => exact (rhs_contr _ _).trans hk
    | ⟨1, _⟩ => exact rhs_col _ _)
  rw [el, er]

/-- The first body stores rows times weights. -/
theorem pay0_apply (x : Vec Ideal S10000x32 .f32) (w : Vec Ideal S32x32 .f32) (j : S10000x32.Idx) :
    k0_pay1 x w j = rowsTimes x w j := by
  unfold k0_pay1
  exact blockProduct_apply _ _ j

/-- The bias row broadcast down the block and added: entry (r, n) of the sum is a(r, n) + b(0, n). -/
theorem addRow_eq (a : Vec Ideal S10000x32 .f32) (b : Vec Ideal S1x32 .f32) :
    (addf (shapeCast S10000x32 a shapeCasts_S10000x32_S10000x32)
      (broadcastTo S10000x32 (shapeCast S1x32 b shapeCasts_S1x32_S1x32) broadcasts_S1x32_S10000x32) : FVec Ideal S10000x32 .f32)
      = addRow a b := by
  rw [shapeCast_self, shapeCast_self]
  funext i
  obtain ⟨p, q, rfl⟩ : ∃ (p : Fin 10000) (q : Fin 32), i = ix2 p q := ⟨i 0, i 1, eq_ix2 i⟩
  rw [addf_apply, broadcastTo_1b_ab_apply]
  rfl

/-- The second body stores rectifier(rows + bias row) times weights. -/
theorem pay1_apply (a : Vec Ideal S10000x32 .f32) (b : Vec Ideal S1x32 .f32) (w : Vec Ideal S32x32 .f32) (j : S10000x32.Idx) :
    k1_pay1 a b w j = rowsTimes (relu (addRow a b)) w j := by
  unfold k1_pay1
  rw [addRow_eq]
  exact blockProduct_apply _ _ j

/-- The third body stores (rows + bias row) + (first adapter product + second adapter product). -/
theorem pay2_apply (nf pf : Vec Ideal S10000x32 .f32) (wn wt : Vec Ideal S32x32 .f32) (a : Vec Ideal S10000x32 .f32) (b : Vec Ideal S1x32 .f32)
    (j : S10000x32.Idx) :
    k2_pay1 nf pf wn wt a b j = addRow a b j + (rowsTimes nf wn j + rowsTimes pf wt j) := by
  unfold k2_pay1
  rw [addRow_eq, addf_apply, addf_apply]
  exact congrArg₂ (fun u v => addRow a b j + (u + v)) (blockProduct_apply _ _ j) (blockProduct_apply _ _ j)

end Cert.KernelIdeal.Payloads

end
-- ==== Proof.Region0.lean ====
/-
  The array the first region leaves: all 100000 rows times the weights.

  The region's grid has ten points; point t stages rows 10000·t … 10000·t + 9999 of the row array (all 32 columns), the
  whole 32 × 32 weight array, and writes back the same rows of the result. Since an entry of rows × weights depends on one
  row only, what point t writes back is block t of the whole-array product, and the ten blocks tile the result: the array
  ends holding `rowsTimes` of the two arrays the region was entered with. Stated at ANY entry contents `V`.
-/
import proofs.«174616_j43267500540335_1_alg».proof.Proof.Gen.KernelIdeal.Frame
import proofs.«174616_j43267500540335_1_alg».proof.Proof.Payloads

set_option maxRecDepth 16384

noncomputable section

namespace Cert.KernelIdeal.Region0

open Cert.KernelIdeal Cert.KernelIdeal.Gen Cert.KernelIdeal.Payloads Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block (t, 0), the weight window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of rows × weights of the arrays as the region finds them. -/
theorem flushed_eq (c : Dev nD) (t : Fin cfg0.N) :
    (dat0 V c).flushed 2 t = ((cfg0.win 2).blk t).view.read (Elt Ideal)
      (rowsTimes (M := 100000) (V c main_arg0) (V c main_arg4)) := by
  show (cfg0.win 2).cut (grid0.coords t) ((dat0 V c).after 2 t) = _
  rw [after0_2]
  unfold out0_2
  rw [View.canon_unit_zero hz]
  simp only [View.ld_unit_zero (S := S10000x32) hz, View.ld_unit_zero (S := S32x32) hz]
  obtain ⟨e0, e1, e2, e3, e4, e5⟩ := idx_facts t
  funext j
  show k0_pay1 (iblk0 V c 0 t) (iblk0 V c 1 t) j
    = rowsTimes (M := 100000) (V c main_arg0) (V c main_arg4) (((cfg0.win 2).blk t).view.emb j)
  refine (pay0_apply (iblk0 V c 0 t) (iblk0 V c 1 t) j).trans ?_
  rw [rowsTimes_apply, rowsTimes_apply]
  refine Finset.sum_congr rfl fun k _ => ?_
  have h0 : iblk0 V c 0 t (rowAt j k) = V c main_arg0 (rowAt (((cfg0.win 2).blk t).view.emb j) k) := by
    show V c main_arg0 (((cfg0.win 0).blk t).view.emb (rowAt j k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 32 + 1 * k.val = k.val; omega
  have h1 : iblk0 V c 1 t (colAt j k) = V c main_arg4 (colAt (((cfg0.win 2).blk t).view.emb j) k) := by
    show V c main_arg4 (((cfg0.win 1).blk t).view.emb (colAt j k)) = _
    refine congrArg (V c main_arg4) (funext fun a => Fin.ext ?_)
    match a with
    | ⟨0, _⟩ => show win0_1.index t (0 : Fin 2) * 32 + 1 * k.val = k.val; omega
    | ⟨1, _⟩ => show win0_1.index t (1 : Fin 2) * 32 + 1 * (j 1).val = win0_2.index t (1 : Fin 2) * 32 + 1 * (j 1).val; omega
  rw [h0, h1]

/-- An index of the result array is in point t's block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v30).slice (win0_2.rect t)).set ↔ _
  rw [View.set_slice_whole, Rect.mem_set_unit]
  exact Iff.rfl

/-- Every point of the grid is some row block's: row r lies in block r / 10000. -/
theorem pt_onto : ∀ q : Fin 10, ∃ t : Fin cfg0.N, t.val = q.val :=
  (by decide +kernel : ∀ q : Fin 10, ∃ t : Fin grid0.N, t.val = q.val)

/-- The ten row blocks cover the result array. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := pt_onto ⟨(i 0).val / 10000, by omega⟩
  obtain ⟨e0, e1, e2, e3, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; simp only at ht; omega
  | ⟨1, _⟩ => show win0_2.index t (1 : Fin 2) * 32 ≤ (i 1).val ∧ (i 1).val < win0_2.index t (1 : Fin 2) * 32 + 32; omega

/-- THE ARRAY after the region: rows × weights of the two arrays the region was entered with. -/
theorem array_eq (c : Dev nD) :
    (dat0 V c).arrAt 2 cfg0.N = rowsTimes (M := 100000) (V c main_arg0) (V c main_arg4) :=
  (dat0 V c).arrAt_eq_of_cover 2 _ (fun t _ => flushed_eq V c t) (cover)

end Cert.KernelIdeal.Region0

end
-- ==== Proof.Region1.lean ====
/-
  The array the second region leaves: rectifier(aggregate + bias) times the second layer's weights.

  Point t stages rows 10000·t … 10000·t + 9999 of the aggregated array, the whole 1 × 32 bias row and the whole 32 × 32
  weight array, and writes back the same rows of the result. Adding the bias row and the rectifier act entry by entry, and
  an entry of rows × weights depends on one row only, so what point t writes back is block t of the whole-array function;
  the ten blocks tile the result. Stated at ANY entry contents `V`.
-/
import proofs.«174616_j43267500540335_1_alg».proof.Proof.Gen.KernelIdeal.Frame
import proofs.«174616_j43267500540335_1_alg».proof.Proof.Payloads

set_option maxRecDepth 16384

noncomputable section

namespace Cert.KernelIdeal.Region1

open Cert.KernelIdeal Cert.KernelIdeal.Gen Cert.KernelIdeal.Payloads Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the output's and the aggregate's row windows at block (t, 0), the bias row and the
    weights at block (0, 0). -/
theorem idx_facts : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- What point t writes back is block t of rectifier(aggregate + bias row) × weights of the arrays as the region finds them. -/
theorem flushed_eq (c : Dev nD) (t : Fin cfg1.N) :
    (dat1 V c).flushed 3 t = ((cfg1.win 3).blk t).view.read (Elt Ideal)
      (rowsTimes (M := 100000) (relu (addRow (V c main_v43) (V c main_v44))) (V c main_arg6)) := by
  show (cfg1.win 3).cut (grid1.coords t) ((dat1 V c).after 3 t) = _
  rw [after1_3]
  unfold out1_3
  rw [View.canon_unit_zero hz]
  simp only [View.ld_unit_zero (S := S10000x32) hz, View.ld_unit_zero (S := S1x32) hz, View.ld_unit_zero (S := S32x32) hz]
  obtain ⟨o0, o1, e00, e01, e10, e11, e20, e21⟩ := idx_facts t
  funext j
  show k1_pay1 (iblk1 V c 0 t) (iblk1 V c 1 t) (iblk1 V c 2 t) j
    = rowsTimes (M := 100000) (relu (addRow (V c main_v43) (V c main_v44))) (V c main_arg6) (((cfg1.win 3).blk t).view.emb j)
  refine (pay1_apply (iblk1 V c 0 t) (iblk1 V c 1 t) (iblk1 V c 2 t) j).trans ?_
  rw [rowsTimes_apply, rowsTimes_apply]
  refine Finset.sum_congr rfl fun k _ => ?_
  have h0 : iblk1 V c 0 t (rowAt j k) = V c main_v43 (rowAt (((cfg1.win 3).blk t).view.emb j) k) := by
    show V c main_v43 (((cfg1.win 0).blk t).view.emb (rowAt j k)) = _
    refine congrArg (V c main_v43) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 32 + 1 * k.val = k.val; omega
  have hb : ∀ q : Fin 32, iblk1 V c 1 t (ix2 (0 : Fin 1) q) = V c main_v44 (ix2 (0 : Fin 1) q) := fun q => by
    show V c main_v44 (((cfg1.win 1).blk t).view.emb (ix2 (0 : Fin 1) q)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 32 + 1 * q.val = q.val; omega
  have h2 : iblk1 V c 2 t (colAt j k) = V c main_arg6 (colAt (((cfg1.win 3).blk t).view.emb j) k) := by
    show V c main_arg6 (((cfg1.win 2).blk t).view.emb (colAt j k)) = _
    refine congrArg (V c main_arg6) (funext fun a => Fin.ext ?_)
    match a with
    | ⟨0, _⟩ => show win1_2.index t (0 : Fin 2) * 32 + 1 * k.val = k.val; omega
    | ⟨1, _⟩ => show win1_2.index t (1 : Fin 2) * 32 + 1 * (j 1).val = win1_3.index t (1 : Fin 2) * 32 + 1 * (j 1).val; omega
  simp only [relu, addRow]
  rw [h0, hb, h2]

/-- An index of the result array is in point t's block iff each coordinate is in the block's range on its axis. -/
theorem mem_blk (t : Fin cfg1.N) (i : S100000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v45).slice (win1_3.rect t)).set ↔ _
  rw [View.set_slice_whole, Rect.mem_set_unit]
  exact Iff.rfl

/-- Every block number below ten is some grid point's. -/
theorem pt_onto : ∀ q : Fin 10, ∃ t : Fin cfg1.N, t.val = q.val :=
  (by decide +kernel : ∀ q : Fin 10, ∃ t : Fin grid1.N, t.val = q.val)

/-- The ten row blocks cover the result array: row r lies in block r / 10000. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ := pt_onto ⟨(i 0).val / 10000, by omega⟩
  have eo0 := (idx_facts t).1
  have eo1 := (idx_facts t).2.1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; simp only at ht; omega
  | ⟨1, _⟩ => show win1_3.index t (1 : Fin 2) * 32 ≤ (i 1).val ∧ (i 1).val < win1_3.index t (1 : Fin 2) * 32 + 32; omega

/-- THE ARRAY after the region: rectifier(aggregate + bias row) × weights of the arrays the region was entered with. -/
theorem array_eq (c : Dev nD) :
    (dat1 V c).arrAt 3 cfg1.N = rowsTimes (M := 100000) (relu (addRow (V c main_v43) (V c main_v44))) (V c main_arg6) :=
  (dat1 V c).arrAt_eq_of_cover 3 _ (fun t _ => flushed_eq V c t) (cover)

end Cert.KernelIdeal.Region1

end
-- ==== Proof.Region2.lean ====
/-
  The array the third region leaves: (aggregate + bias) + (neighbour features × adapter + previous-time features × adapter).

  Point t stages rows 10000·t … 10000·t + 9999 of the aggregated array and of the two feature arrays, the whole bias row and
  the two whole 32 × 32 adapter arrays, and writes back the same rows of the result. Every term of the sum at entry (r, n)
  depends on row r only, so what point t writes back is block t of the whole-array function, and the ten blocks tile the
  result. Stated at ANY entry contents `V`.
-/
import proofs.«174616_j43267500540335_1_alg».proof.Proof.Gen.KernelIdeal.Frame
import proofs.«174616_j43267500540335_1_alg».proof.Proof.Payloads

set_option maxRecDepth 16384

noncomputable section

namespace Cert.KernelIdeal.Region2

open Cert.KernelIdeal Cert.KernelIdeal.Gen Cert.KernelIdeal.Payloads Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The last layer as a whole-array function: entry by entry, (a + bias row) + (nf × wn + pf × wt). -/
def lastLayer (a : S100000x32.Idx → EReal) (b : S1x32.Idx → EReal) (nf pf : S100000x32.Idx → EReal) (wn wt : S32x32.Idx → EReal) :
    S100000x32.Idx → EReal :=
  fun i => addRow (M := 100000) a b i + (rowsTimes (M := 100000) nf wn i + rowsTimes (M := 100000) pf wt i)

/-- Two "rows plus bias row" entries agree when the row entries agree, the bias rows agree, and the two indices have the
    same column. Over plain arrays, so that it can be used at a window's blocks by naming every argument. -/
theorem addRow_congr (a : S10000x32.Idx → EReal) (b : S1x32.Idx → EReal) (A : S100000x32.Idx → EReal) (B : S1x32.Idx → EReal)
    (j : S10000x32.Idx) (i : S100000x32.Idx) (h1 : (i 1).val = (j 1).val) (ha : a j = A i)
    (hb : ∀ q : Fin 32, b (ix2 (0 : Fin 1) q) = B (ix2 (0 : Fin 1) q)) :
    addRow (M := 10000) a b j = addRow (M := 100000) A B i := by
  simp only [addRow]
  rw [ha, hb]
  exact congrArg (fun q : Fin 32 => A i + B (ix2 (0 : Fin 1) q)) (Fin.ext h1.symm)

/-- The printed index maps over the grid: the four row windows at block (t, 0), the bias row and the two adapters at (0, 0). -/
theorem idx_facts : ∀ t : Fin cfg2.N, win2_6.index t (0 : Fin 2) = t.val ∧ win2_6.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- What point t writes back is block t of the last layer of the arrays as the region finds them. -/
theorem flushed_eq (c : Dev nD) (t : Fin cfg2.N) :
    (dat2 V c).flushed 6 t = ((cfg2.win 6).blk t).view.read (Elt Ideal)
      (lastLayer (V c main_v58) (V c main_v59) (V c main_arg2) (V c main_arg3) (V c main_arg8) (V c main_arg9)) := by
  show (cfg2.win 6).cut (grid2.coords t) ((dat2 V c).after 6 t) = _
  rw [after2_6]
  unfold out2_6
  rw [View.canon_unit_zero hz]
  simp only [View.ld_unit_zero (S := S10000x32) hz, View.ld_unit_zero (S := S1x32) hz, View.ld_unit_zero (S := S32x32) hz]
  obtain ⟨o0, o1, e00, e01, e10, e11, e20, e21, e30, e31, e40, e41, e50, e51⟩ := idx_facts t
  funext j
  show k2_pay1 (iblk2 V c 2 t) (iblk2 V c 3 t) (iblk2 V c 4 t) (iblk2 V c 5 t) (iblk2 V c 0 t) (iblk2 V c 1 t) j
    = lastLayer (V c main_v58) (V c main_v59) (V c main_arg2) (V c main_arg3) (V c main_arg8) (V c main_arg9) (((cfg2.win 6).blk t).view.emb j)
  refine (pay2_apply (iblk2 V c 2 t) (iblk2 V c 3 t) (iblk2 V c 4 t) (iblk2 V c 5 t) (iblk2 V c 0 t) (iblk2 V c 1 t) j).trans ?_
  have ha : iblk2 V c 0 t j = V c main_v58 (((cfg2.win 6).blk t).view.emb j) := by
    show V c main_v58 (((cfg2.win 0).blk t).view.emb j) = _
    refine congrArg (V c main_v58) (funext fun a => Fin.ext ?_)
    match a with
    | ⟨0, _⟩ => show win2_0.index t (0 : Fin 2) * 10000 + 1 * (j 0).val = win2_6.index t (0 : Fin 2) * 10000 + 1 * (j 0).val; omega
    | ⟨1, _⟩ => show win2_0.index t (1 : Fin 2) * 32 + 1 * (j 1).val = win2_6.index t (1 : Fin 2) * 32 + 1 * (j 1).val; omega
  have hj1 : ((((cfg2.win 6).blk t).view.emb j) 1).val = (j 1).val := by
    show win2_6.index t (1 : Fin 2) * 32 + 1 * (j 1).val = (j 1).val; omega
  have hb : ∀ q : Fin 32, iblk2 V c 1 t (ix2 (0 : Fin 1) q) = V c main_v59 (ix2 (0 : Fin 1) q) := fun q => by
    show V c main_v59 (((cfg2.win 1).blk t).view.emb (ix2 (0 : Fin 1) q)) = _
    refine congrArg (V c main_v59) (funext fun a => Fin.ext ?_)
    match a with
    | ⟨0, _⟩ => show win2_1.index t (0 : Fin 2) * 1 + 1 * 0 = 0; omega
    | ⟨1, _⟩ => show win2_1.index t (1 : Fin 2) * 32 + 1 * q.val = q.val; omega
  have hn : rowsTimes (iblk2 V c 2 t) (iblk2 V c 4 t) j
      = rowsTimes (M := 100000) (V c main_arg2) (V c main_arg8) (((cfg2.win 6).blk t).view.emb j) := by
    rw [rowsTimes_apply, rowsTimes_apply]
    refine Finset.sum_congr rfl fun k _ => ?_
    have h0 : iblk2 V c 2 t (rowAt j k) = V c main_arg2 (rowAt (((cfg2.win 6).blk t).view.emb j) k) := by
      show V c main_arg2 (((cfg2.win 2).blk t).view.emb (rowAt j k)) = _
      refine congrArg (V c main_arg2) (funext fun a => Fin.ext ?_)
      match a with
      | ⟨0, _⟩ => show win2_2.index t (0 : Fin 2) * 10000 + 1 * (j 0).val = win2_6.index t (0 : Fin 2) * 10000 + 1 * (j 0).val; omega
      | ⟨1, _⟩ => show win2_2.index t (1 : Fin 2) * 32 + 1 * k.val = k.val; omega
    have h1 : iblk2 V c 4 t (colAt j k) = V c main_arg8 (colAt (((cfg2.win 6).blk t).view.emb j) k) := by
      show V c main_arg8 (((cfg2.win 4).blk t).view.emb (colAt j k)) = _
      refine congrArg (V c main_arg8) (funext fun a => Fin.ext ?_)
      match a with
      | ⟨0, _⟩ => show win2_4.index t (0 : Fin 2) * 32 + 1 * k.val = k.val; omega
      | ⟨1, _⟩ => show win2_4.index t (1 : Fin 2) * 32 + 1 * (j 1).val = win2_6.index t (1 : Fin 2) * 32 + 1 * (j 1).val; omega
    rw [h0, h1]
  have hp : rowsTimes (iblk2 V c 3 t) (iblk2 V c 5 t) j
      = rowsTimes (M := 100000) (V c main_arg3) (V c main_arg9) (((cfg2.win 6).blk t).view.emb j) := by
    rw [rowsTimes_apply, rowsTimes_apply]
    refine Finset.sum_congr rfl fun k _ => ?_
    have h0 : iblk2 V c 3 t (rowAt j k) = V c main_arg3 (rowAt (((cfg2.win 6).blk t).view.emb j) k) := by
      show V c main_arg3 (((cfg2.win 3).blk t).view.emb (rowAt j k)) = _
      refine congrArg (V c main_arg3) (funext fun a => Fin.ext ?_)
      match a with
      | ⟨0, _⟩ => show win2_3.index t (0 : Fin 2) * 10000 + 1 * (j 0).val = win2_6.index t (0 : Fin 2) * 10000 + 1 * (j 0).val; omega
      | ⟨1, _⟩ => show win2_3.index t (1 : Fin 2) * 32 + 1 * k.val = k.val; omega
    have h1 : iblk2 V c 5 t (colAt j k) = V c main_arg9 (colAt (((cfg2.win 6).blk t).view.emb j) k) := by
      show V c main_arg9 (((cfg2.win 5).blk t).view.emb (colAt j k)) = _
      refine congrArg (V c main_arg9) (funext fun a => Fin.ext ?_)
      match a with
      | ⟨0, _⟩ => show win2_5.index t (0 : Fin 2) * 32 + 1 * k.val = k.val; omega
      | ⟨1, _⟩ => show win2_5.index t (1 : Fin 2) * 32 + 1 * (j 1).val = win2_6.index t (1 : Fin 2) * 32 + 1 * (j 1).val; omega
    rw [h0, h1]
  rw [hn, hp]
  have hrow : addRow (iblk2 V c 0 t) (iblk2 V c 1 t) j
      = addRow (M := 100000) (V c main_v58) (V c main_v59) (((cfg2.win 6).blk t).view.emb j) :=
    addRow_congr (iblk2 V c 0 t) (iblk2 V c 1 t) (V c main_v58) (V c main_v59) j (((cfg2.win 6).blk t).view.emb j) hj1 ha hb
  exact congrArg (· + (rowsTimes (M := 100000) (V c main_arg2) (V c main_arg8) (((cfg2.win 6).blk t).view.emb j)
      + rowsTimes (M := 100000) (V c main_arg3) (V c main_arg9) (((cfg2.win 6).blk t).view.emb j))) hrow

/-- An index of the result array is in point t's block iff each coordinate is in the block's range on its axis. -/
theorem mem_blk (t : Fin cfg2.N) (i : S100000x32.Idx) :
    i ∈ ((cfg2.win 6).blk t).view.set ↔ ∀ a : Fin 2, win2_6.index t a * S10000x32.size a ≤ (i a).val ∧ (i a).val < win2_6.index t a * S10000x32.size a + S10000x32.size a := by
  show i ∈ ((View.whole main_v60).slice (win2_6.rect t)).set ↔ _
  rw [View.set_slice_whole, Rect.mem_set_unit]
  exact Iff.rfl

/-- Every block number below ten is some grid point's. -/
theorem pt_onto : ∀ q : Fin 10, ∃ t : Fin cfg2.N, t.val = q.val :=
  (by decide +kernel : ∀ q : Fin 10, ∃ t : Fin grid2.N, t.val = q.val)

/-- The ten row blocks cover the result array: row r lies in block r / 10000. -/
theorem cover (i : S100000x32.Idx) : ∃ t : Fin cfg2.N, (cfg2.win 6).flush t = true ∧ i ∈ ((cfg2.win 6).blk t).view.set := by
  have hi0 : (i 0).val < 100000 := (i 0).isLt
  have hi1 : (i 1).val < 32 := (i 1).isLt
  obtain ⟨t, ht⟩ := pt_onto ⟨(i 0).val / 10000, by omega⟩
  have eo0 := (idx_facts t).1
  have eo1 := (idx_facts t).2.1
  refine ⟨t, flush2_6 t, ?_⟩
  rw [mem_blk]
  intro a
  match a with
  | ⟨0, _⟩ => show win2_6.index t (0 : Fin 2) * 10000 ≤ (i 0).val ∧ (i 0).val < win2_6.index t (0 : Fin 2) * 10000 + 10000; simp only at ht; omega
  | ⟨1, _⟩ => show win2_6.index t (1 : Fin 2) * 32 ≤ (i 1).val ∧ (i 1).val < win2_6.index t (1 : Fin 2) * 32 + 32; omega

/-- THE ARRAY after the region: the last layer of the arrays the region was entered with. -/
theorem array_eq (c : Dev nD) :
    (dat2 V c).arrAt 6 cfg2.N
      = lastLayer (V c main_v58) (V c main_v59) (V c main_arg2) (V c main_arg3) (V c main_arg8) (V c main_arg9) :=
  (dat2 V c).arrAt_eq_of_cover 6 _ (fun t _ => flushed_eq V c t) (cover)

end Cert.KernelIdeal.Region2

end
-- ==== Proof.RefStages.lean ====
/-
  The reference, stage by stage.

  The graph: 1600000 directed edges (a source row and a target row of node numbers) and, appended, one self loop per node,
  1700000 pairs in all. The degree of a node is the number of pairs that end at it; the weight of a pair is
  1/sqrt(deg source) · 1/sqrt(deg target) (zero where a degree is not positive). One aggregation gathers the feature row of
  every pair's source, scales it by the pair's weight, and adds it into the target's row. The network is
      out = aggregate(relu(aggregate(x·W1) + b1)·W2) + b2 + nf·Wn + pf·Wt.
  The reference recomputes the pair weights for each layer; both computations are the same function of the edge array, so
  both layers use ONE `edgeWeight`. The gathers and the scatter-additions read indices out of their operands, so they are
  kept as whole-array functions and never opened: the kernel's host stretches apply the same functions.
-/
import proofs.«174616_j43267500540335_1_alg».proof.Proof.RefRun

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The source of every pair: row 0 of the edge array, then every node once (the self loops). -/
def srcIds (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The target of every pair: row 1 of the edge array, then every node once. -/
def dstIds (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node number counted from the end when it is negative: v + 100000 where v < 0, else v. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- The degree of every node: one added at its row for every pair that ends there. -/
def degree (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- 1/sqrt(degree) where the degree is positive, zero elsewhere. -/
def invSqrtDegree (d : (⟨S1700000, .i32⟩ : BufTy).Contents (Elt F)) : (⟨S100000, .f32⟩ : BufTy).Contents (Elt F) :=
  select (cmpf (F := F) .ogt (degree (F := F) d) (broadcastInDim S100000 ![] bcast_S_S100000 (constant S_ .f32 0x00000000#32))) (Host.rsqrt (degree (F := F) d)) (broadcastInDim S100000 ![] bcast_S_S100000 (id (constant S_ .f32 0x00000000#32)))

/-- The weight of every pair: the inverse square root of its source's degree times that of its target's. -/
def edgeWeight (s d : (⟨S1700000, .i32⟩ : BufTy).Contents (Elt F)) : (⟨S1700000, .f32⟩ : BufTy).Contents (Elt F) :=
  mulf (Host.gather gather_S100000_S1700000x1_S1700000_n_0_n_n_0_1_1 (invSqrtDegree (F := F) d) (broadcastInDim S1700000x1 ![0] bcast_S1700000_S1700000x1_0 (wrap (F := F) s)))
    (Host.gather gather_S100000_S1700000x1_S1700000_n_0_n_n_0_1_1 (invSqrtDegree (F := F) d) (broadcastInDim S1700000x1 ![0] bcast_S1700000_S1700000x1_0 (wrap (F := F) d)))

/-- One aggregation: the source's feature row of every pair, scaled by the pair's weight `n`, added into the target's row. -/
def aggregate (h : (⟨S100000x32, .f32⟩ : BufTy).Contents (Elt F)) (s d : (⟨S1700000, .i32⟩ : BufTy).Contents (Elt F))
    (n : (⟨S1700000, .f32⟩ : BufTy).Contents (Elt F)) : (⟨S100000x32, .f32⟩ : BufTy).Contents (Elt F) :=
  Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 d)
    (mulf (Host.gather gather_S100000x32_S1700000x1_S1700000x32_1_0_n_n_0_1_132 h (broadcastInDim S1700000x1 ![0] bcast_S1700000_S1700000x1_0 (wrap (F := F) s)))
      (broadcastInDim S1700000x32 ![0, 1] bcast_S1700000x1_S1700000x32_0_1 (broadcastInDim S1700000x1 ![0] bcast_S1700000_S1700000x1_0 n)))

/-- A product of all the rows with a 32 × 32 weight array, as the host computes it. -/
def product (l : (⟨S100000x32, .f32⟩ : BufTy).Contents (Elt F)) (r : (⟨S32x32, .f32⟩ : BufTy).Contents (Elt F)) :
    (⟨S100000x32, .f32⟩ : BufTy).Contents (Elt F) :=
  Host.dotGeneral dot_S100000x32_S32x32_S100000x32_1_0_0_1_n_n none l r

/-- A bias vector laid along every row. -/
def biasRows (b : (⟨S32, .f32⟩ : BufTy).Contents (Elt F)) : (⟨S100000x32, .f32⟩ : BufTy).Contents (Elt F) :=
  broadcastInDim S100000x32 ![0, 1] bcast_S1x32_S100000x32_0_1 (broadcastInDim S1x32 ![1] bcast_S32_S1x32_1 b)

/-- The rectifier, as jax spells it: the maximum with a splat of the zero word. -/
def rectify (z : (⟨S100000x32, .f32⟩ : BufTy).Contents (Elt F)) : (⟨S100000x32, .f32⟩ : BufTy).Contents (Elt F) :=
  maximumf z (broadcastInDim S100000x32 ![] bcast_S_S100000x32 (constant S_ .f32 0x00000000#32))

/-- The whole network as the reference computes it. -/
def network (x : (⟨S100000x32, .f32⟩ : BufTy).Contents (Elt F)) (e : (⟨S2x1600000, .i32⟩ : BufTy).Contents (Elt F))
    (nf pf : (⟨S100000x32, .f32⟩ : BufTy).Contents (Elt F)) (W1 : (⟨S32x32, .f32⟩ : BufTy).Contents (Elt F)) (b1 : (⟨S32, .f32⟩ : BufTy).Contents (Elt F))
    (W2 : (⟨S32x32, .f32⟩ : BufTy).Contents (Elt F)) (b2 : (⟨S32, .f32⟩ : BufTy).Contents (Elt F)) (Wn Wt : (⟨S32x32, .f32⟩ : BufTy).Contents (Elt F)) :
    (⟨S100000x32, .f32⟩ : BufTy).Contents (Elt F) :=
  addf (addf (addf
    (aggregate (F := F)
      (product (F := F) (rectify (F := F) (addf (aggregate (F := F) (product (F := F) x W1) (srcIds (F := F) e) (dstIds (F := F) e)
        (edgeWeight (F := F) (srcIds (F := F) e) (dstIds (F := F) e))) (biasRows (F := F) b1))) W2)
      (srcIds (F := F) e) (dstIds (F := F) e) (edgeWeight (F := F) (srcIds (F := F) e) (dstIds (F := F) e)))
    (biasRows (F := F) b2)) (product (F := F) nf Wn)) (product (F := F) pf Wt)

set_option maxRecDepth 8192 in
/-- The run's composed term IS the network of the ten argument arrays. -/
theorem res_eq (m : (ℓ : Loc nD τ sig) → Buf (Elt F) ℓ) (c : Dev nD) :
    Cert.ReferenceIdeal.ValueP.res_main_v91 m c
      = network (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  unfold Cert.ReferenceIdeal.ValueP.res_main_v91; rfl

end Cert.ReferenceIdeal.Stages

end
-- ==== Proof.HostStretches.lean ====
/-
  The kernel's host stretches, each as a function of what it finds.

  Between its three regions the kernel's @main runs the same host operations as the reference: it builds the pair lists
  with their self loops, the degrees, the pair weights (once, where the reference does it per layer), and after each of the
  first two regions one aggregation and the reshaping of a bias vector to a 1 × 32 row. Each stretch is read here at an
  ARBITRARY incoming valuation `W`: the buffer a stretch writes holds the stage function of the buffers it reads, and every
  buffer it does not write is left as it was. The stage functions are the reference's own (the operations are the same).
-/
import proofs.«174616_j43267500540335_1_alg».proof.Proof.Gen.KernelIdeal.Launch
import proofs.«174616_j43267500540335_1_alg».proof.Proof.RefStages

set_option maxRecDepth 16384

noncomputable section

namespace Cert.KernelIdeal.HostStretches

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

/-! ## The first stretch: the pair lists, the degrees, and the two operands of the inverse square root's guard -/

theorem s0_src : after hostOps0 W (Proc.devRef .tc main_v3) = Cert.ReferenceIdeal.Stages.srcIds (F := F) (W (Proc.devRef .tc main_arg1)) := by
  after_results_simp <;> rfl
theorem s0_dst : after hostOps0 W (Proc.devRef .tc main_v6) = Cert.ReferenceIdeal.Stages.dstIds (F := F) (W (Proc.devRef .tc main_arg1)) := by
  after_results_simp <;> rfl
theorem s0_positive : after hostOps0 W (Proc.devRef .tc main_v12)
    = cmpf (F := F) .ogt (Cert.ReferenceIdeal.Stages.degree (F := F) (Cert.ReferenceIdeal.Stages.dstIds (F := F) (W (Proc.devRef .tc main_arg1))))
        (broadcastInDim S100000 ![] bcast_S_S100000 (constant S_ .f32 0x00000000#32)) := by
  after_results_simp <;> rfl
theorem s0_rsqrt : after hostOps0 W (Proc.devRef .tc main_v13)
    = Host.rsqrt (Cert.ReferenceIdeal.Stages.degree (F := F) (Cert.ReferenceIdeal.Stages.dstIds (F := F) (W (Proc.devRef .tc main_arg1)))) := by
  after_results_simp <;> rfl
theorem s0_zero : after hostOps0 W (Proc.devRef .tc main_cst_2) = constant (F := F) S_ .f32 0x00000000#32 := by
  after_results_simp <;> rfl

/-! ## The second stretch (the outlined `where`): the guarded inverse square root -/

theorem s01_dinv : after hostOps0_1 W (Proc.devRef .tc main_v14)
    = select (W (Proc.devRef .tc main_v12)) (W (Proc.devRef .tc main_v13)) (broadcastInDim S100000 ![] bcast_S_S100000 (id (W (Proc.devRef .tc main_cst_2)))) := by
  after_results_simp <;> rfl
theorem s01_src : after hostOps0_1 W (Proc.devRef .tc main_v3) = W (Proc.devRef .tc main_v3) := by after_results_simp <;> rfl
theorem s01_dst : after hostOps0_1 W (Proc.devRef .tc main_v6) = W (Proc.devRef .tc main_v6) := by after_results_simp <;> rfl

/-! ## The third stretch: the pair weights -/

theorem s02_weight : after hostOps0_2 W (Proc.devRef .tc main_v29)
    = mulf (Host.gather gather_S100000_S1700000x1_S1700000_n_0_n_n_0_1_1 (W (Proc.devRef .tc main_v14))
          (broadcastInDim S1700000x1 ![0] bcast_S1700000_S1700000x1_0 (Cert.ReferenceIdeal.Stages.wrap (F := F) (W (Proc.devRef .tc main_v3)))))
        (Host.gather gather_S100000_S1700000x1_S1700000_n_0_n_n_0_1_1 (W (Proc.devRef .tc main_v14))
          (broadcastInDim S1700000x1 ![0] bcast_S1700000_S1700000x1_0 (Cert.ReferenceIdeal.Stages.wrap (F := F) (W (Proc.devRef .tc main_v6))))) := by
  after_results_simp <;> rfl
theorem s02_src : after hostOps0_2 W (Proc.devRef .tc main_v3) = W (Proc.devRef .tc main_v3) := by after_results_simp <;> rfl
theorem s02_dst : after hostOps0_2 W (Proc.devRef .tc main_v6) = W (Proc.devRef .tc main_v6) := by after_results_simp <;> rfl

/-! ## After the first region: one aggregation, and the first bias as a row -/

theorem s1_agg : after hostOps1 W (Proc.devRef .tc main_v43)
    = Cert.ReferenceIdeal.Stages.aggregate (F := F) (W (Proc.devRef .tc main_v30)) (W (Proc.devRef .tc main_v3)) (W (Proc.devRef .tc main_v6)) (W (Proc.devRef .tc main_v29)) := by
  after_results_simp <;> rfl
theorem s1_bias : after hostOps1 W (Proc.devRef .tc main_v44) = shapeCast S1x32 (W (Proc.devRef .tc main_arg5)) shapeCasts_S32_S1x32 := by
  after_results_simp <;> rfl
theorem s1_src : after hostOps1 W (Proc.devRef .tc main_v3) = W (Proc.devRef .tc main_v3) := by after_results_simp <;> rfl
theorem s1_dst : after hostOps1 W (Proc.devRef .tc main_v6) = W (Proc.devRef .tc main_v6) := by after_results_simp <;> rfl
theorem s1_weight : after hostOps1 W (Proc.devRef .tc main_v29) = W (Proc.devRef .tc main_v29) := by after_results_simp <;> rfl
theorem s1_W2 : after hostOps1 W (Proc.devRef .tc main_arg6) = W (Proc.devRef .tc main_arg6) := by after_results_simp <;> rfl

/-! ## After the second region: the other aggregation, and the second bias as a row -/

theorem s2_agg : after hostOps2 W (Proc.devRef .tc main_v58)
    = Cert.ReferenceIdeal.Stages.aggregate (F := F) (W (Proc.devRef .tc main_v45)) (W (Proc.devRef .tc main_v3)) (W (Proc.devRef .tc main_v6)) (W (Proc.devRef .tc main_v29)) := by
  after_results_simp <;> rfl
theorem s2_bias : after hostOps2 W (Proc.devRef .tc main_v59) = shapeCast S1x32 (W (Proc.devRef .tc main_arg7)) shapeCasts_S32_S1x32 := by
  after_results_simp <;> rfl
theorem s2_nf : after hostOps2 W (Proc.devRef .tc main_arg2) = W (Proc.devRef .tc main_arg2) := by after_results_simp <;> rfl
theorem s2_pf : after hostOps2 W (Proc.devRef .tc main_arg3) = W (Proc.devRef .tc main_arg3) := by after_results_simp <;> rfl
theorem s2_Wn : after hostOps2 W (Proc.devRef .tc main_arg8) = W (Proc.devRef .tc main_arg8) := by after_results_simp <;> rfl
theorem s2_Wt : after hostOps2 W (Proc.devRef .tc main_arg9) = W (Proc.devRef .tc main_arg9) := by after_results_simp <;> rfl

/-! ## No stretch writes an argument array -/

theorem s0_kept (r : Ref sig .tc) (hr : r = main_arg0 ∨ r = main_arg2 ∨ r = main_arg3 ∨ r = main_arg4 ∨ r = main_arg5 ∨ r = main_arg6 ∨ r = main_arg7 ∨ r = main_arg8 ∨ r = main_arg9) :
    after hostOps0 W (Proc.devRef .tc r) = W (Proc.devRef .tc r) := by
  rcases hr with rfl | rfl | rfl | rfl | rfl | rfl | rfl | rfl | rfl <;> (after_results_simp <;> rfl)
theorem s01_kept (r : Ref sig .tc) (hr : r = main_arg0 ∨ r = main_arg2 ∨ r = main_arg3 ∨ r = main_arg4 ∨ r = main_arg5 ∨ r = main_arg6 ∨ r = main_arg7 ∨ r = main_arg8 ∨ r = main_arg9) :
    after hostOps0_1 W (Proc.devRef .tc r) = W (Proc.devRef .tc r) := by
  rcases hr with rfl | rfl | rfl | rfl | rfl | rfl | rfl | rfl | rfl <;> (after_results_simp <;> rfl)
theorem s02_kept (r : Ref sig .tc) (hr : r = main_arg0 ∨ r = main_arg2 ∨ r = main_arg3 ∨ r = main_arg4 ∨ r = main_arg5 ∨ r = main_arg6 ∨ r = main_arg7 ∨ r = main_arg8 ∨ r = main_arg9) :
    after hostOps0_2 W (Proc.devRef .tc r) = W (Proc.devRef .tc r) := by
  rcases hr with rfl | rfl | rfl | rfl | rfl | rfl | rfl | rfl | rfl <;> (after_results_simp <;> rfl)
theorem s1_kept (r : Ref sig .tc) (hr : r = main_arg2 ∨ r = main_arg3 ∨ r = main_arg6 ∨ r = main_arg7 ∨ r = main_arg8 ∨ r = main_arg9) :
    after hostOps1 W (Proc.devRef .tc r) = W (Proc.devRef .tc r) := by
  rcases hr with rfl | rfl | rfl | rfl | rfl | rfl <;> (after_results_simp <;> rfl)

end Cert.KernelIdeal.HostStretches

end
-- ==== Proof.KernelResult.lean ====
/-
  What the kernel's result array holds, as a function of the ten argument arrays.

  Walking the boundaries of @main backwards from the last one:
    the result is the third region's array, the last layer of what that region was entered with;
    its aggregated operand is the second aggregation, of the second region's array and the pair lists and weights;
    the second region's array is rectifier(first aggregation + first bias row) times the second weights;
    the first aggregation is of the first region's array, which is all the rows times the first weights;
    the pair lists and weights were computed before the first region from the edge array alone, and nothing since wrote
    them; no host operation and no region ever writes an argument array.
  Each step is one equation about one boundary's contents; nothing is unfolded.
-/
import proofs.«174616_j43267500540335_1_alg».proof.Proof.Gen.KernelIdeal.Frame
import proofs.«174616_j43267500540335_1_alg».proof.Proof.Region0
import proofs.«174616_j43267500540335_1_alg».proof.Proof.Region1
import proofs.«174616_j43267500540335_1_alg».proof.Proof.Region2
import proofs.«174616_j43267500540335_1_alg».proof.Proof.HostStretches

set_option maxRecDepth 16384

noncomputable section

namespace Cert.KernelIdeal.Result

open Cert.KernelIdeal Cert.KernelIdeal.Gen Cert.KernelIdeal.HostStretches Cert.Gcn
open Idealize.ShloMosaic Idealize.ShloMosaic.TcCoe Idealize.SL.Sem Idealize.ShloMosaic.StableHlo
open Cert.ReferenceIdeal.Stages (srcIds dstIds edgeWeight aggregate invSqrtDegree)

variable (m : (ℓ : Loc nD τ sig) → Buf (Elt Ideal) ℓ) (ρ : Dev nD → PrngReg) (c : Dev nD)

/-! ## Before the first region: the pair lists, the pair weights, the arguments -/

theorem src3 : W3 m ρ c (Proc.devRef .tc main_v3) = srcIds (F := Ideal) (m ((c : Thread nD τ).loc main_arg1)) :=
  (s02_src (W2 m ρ c)).trans ((s01_src (W1 m ρ c)).trans (s0_src (W0 m ρ c)))
theorem dst3 : W3 m ρ c (Proc.devRef .tc main_v6) = dstIds (F := Ideal) (m ((c : Thread nD τ).loc main_arg1)) :=
  (s02_dst (W2 m ρ c)).trans ((s01_dst (W1 m ρ c)).trans (s0_dst (W0 m ρ c)))

/-- The pair weights the kernel computes once are the reference's: the guarded inverse square root of the degrees, gathered
    at both ends of every pair and multiplied. -/
theorem weight3 : W3 m ρ c (Proc.devRef .tc main_v29)
    = edgeWeight (F := Ideal) (srcIds (F := Ideal) (m ((c : Thread nD τ).loc main_arg1))) (dstIds (F := Ideal) (m ((c : Thread nD τ).loc main_arg1))) := by
  have hp : W1 m ρ c (Proc.devRef .tc main_v12) = _ := s0_positive (W0 m ρ c)
  have hr : W1 m ρ c (Proc.devRef .tc main_v13) = _ := s0_rsqrt (W0 m ρ c)
  have hz : W1 m ρ c (Proc.devRef .tc main_cst_2) = _ := s0_zero (W0 m ρ c)
  have hd : W2 m ρ c (Proc.devRef .tc main_v14) = _ := s01_dinv (W1 m ρ c)
  have hs : W2 m ρ c (Proc.devRef .tc main_v3) = srcIds (F := Ideal) (m ((c : Thread nD τ).loc main_arg1)) :=
    (s01_src (W1 m ρ c)).trans (s0_src (W0 m ρ c))
  have ht : W2 m ρ c (Proc.devRef .tc main_v6) = dstIds (F := Ideal) (m ((c : Thread nD τ).loc main_arg1)) :=
    (s01_dst (W1 m ρ c)).trans (s0_dst (W0 m ρ c))
  refine (s02_weight (W2 m ρ c)).trans ?_
  rw [hd, hp, hr, hz, hs, ht]
  rfl

/-- An argument array is as launched when the first region is entered. -/
theorem arg3 (r : Ref sig .tc) (hr : r = main_arg0 ∨ r = main_arg2 ∨ r = main_arg3 ∨ r = main_arg4 ∨ r = main_arg5 ∨ r = main_arg6 ∨ r = main_arg7 ∨ r = main_arg8 ∨ r = main_arg9) :
    W3 m ρ c (Proc.devRef .tc r) = m ((c : Thread nD τ).loc r) :=
  (s02_kept (W2 m ρ c) r hr).trans ((s01_kept (W1 m ρ c) r hr).trans (s0_kept (W0 m ρ c) r hr))

/-! ## The first region and what it leaves alone -/

/-- The first region's array: all the rows of x times the first weights. -/
theorem first4 : W4 m ρ c (Proc.devRef .tc main_v30)
    = rowsTimes (M := 100000) (m ((c : Thread nD τ).loc main_arg0)) (m ((c : Thread nD τ).loc main_arg4)) :=
  (W4_arr m ρ c 2).trans ((Region0.array_eq (V3 m ρ) c).trans
    (congrArg₂ (rowsTimes (M := 100000)) (arg3 m ρ c main_arg0 (by decide)) (arg3 m ρ c main_arg4 (by decide))))

theorem src4 : W4 m ρ c (Proc.devRef .tc main_v3) = srcIds (F := Ideal) (m ((c : Thread nD τ).loc main_arg1)) :=
  (W4_of_ne m ρ c main_v3 (by decide)).trans (src3 m ρ c)
theorem dst4 : W4 m ρ c (Proc.devRef .tc main_v6) = dstIds (F := Ideal) (m ((c : Thread nD τ).loc main_arg1)) :=
  (W4_of_ne m ρ c main_v6 (by decide)).trans (dst3 m ρ c)
theorem weight4 : W4 m ρ c (Proc.devRef .tc main_v29)
    = edgeWeight (F := Ideal) (srcIds (F := Ideal) (m ((c : Thread nD τ).loc main_arg1))) (dstIds (F := Ideal) (m ((c : Thread nD τ).loc main_arg1))) :=
  (W4_of_ne m ρ c main_v29 (by decide)).trans (weight3 m ρ c)
theorem arg4 (r : Ref sig .tc) (hr : r = main_arg0 ∨ r = main_arg2 ∨ r = main_arg3 ∨ r = main_arg4 ∨ r = main_arg5 ∨ r = main_arg6 ∨ r = main_arg7 ∨ r = main_arg8 ∨ r = main_arg9)
    (hb : ∀ w, Pipeline.arrRef spec0 w ≠ r) : W4 m ρ c (Proc.devRef .tc r) = m ((c : Thread nD τ).loc r) :=
  (W4_of_ne m ρ c r hb).trans (arg3 m ρ c r hr)

/-! ## The first aggregation, the second region -/

/-- The first aggregation: of all the rows times the first weights. -/
theorem agg5 : W5 m ρ c (Proc.devRef .tc main_v43)
    = aggregate (F := Ideal) (rowsTimes (M := 100000) (m ((c : Thread nD τ).loc main_arg0)) (m ((c : Thread nD τ).loc main_arg4)))
        (srcIds (F := Ideal) (m ((c : Thread nD τ).loc main_arg1))) (dstIds (F := Ideal) (m ((c : Thread nD τ).loc main_arg1)))
        (edgeWeight (F := Ideal) (srcIds (F := Ideal) (m ((c : Thread nD τ).loc main_arg1))) (dstIds (F := Ideal) (m ((c : Thread nD τ).loc main_arg1)))) := by
  refine (s1_agg (W4 m ρ c)).trans ?_
  rw [first4 m ρ c, src4 m ρ c, dst4 m ρ c, weight4 m ρ c]
theorem bias5 : W5 m ρ c (Proc.devRef .tc main_v44) = shapeCast S1x32 (m ((c : Thread nD τ).loc main_arg5)) shapeCasts_S32_S1x32 := by
  refine (s1_bias (W4 m ρ c)).trans ?_
  rw [arg4 m ρ c main_arg5 (by decide) (by decide)]
theorem src5 : W5 m ρ c (Proc.devRef .tc main_v3) = srcIds (F := Ideal) (m ((c : Thread nD τ).loc main_arg1)) :=
  (s1_src (W4 m ρ c)).trans (src4 m ρ c)
theorem dst5 : W5 m ρ c (Proc.devRef .tc main_v6) = dstIds (F := Ideal) (m ((c : Thread nD τ).loc main_arg1)) :=
  (s1_dst (W4 m ρ c)).trans (dst4 m ρ c)
theorem weight5 : W5 m ρ c (Proc.devRef .tc main_v29)
    = edgeWeight (F := Ideal) (srcIds (F := Ideal) (m ((c : Thread nD τ).loc main_arg1))) (dstIds (F := Ideal) (m ((c : Thread nD τ).loc main_arg1))) :=
  (s1_weight (W4 m ρ c)).trans (weight4 m ρ c)
theorem arg5 (r : Ref sig .tc) (hr : r = main_arg0 ∨ r = main_arg2 ∨ r = main_arg3 ∨ r = main_arg4 ∨ r = main_arg5 ∨ r = main_arg6 ∨ r = main_arg7 ∨ r = main_arg8 ∨ r = main_arg9)
    (hb : ∀ w, Pipeline.arrRef spec0 w ≠ r) (h1 : r = main_arg2 ∨ r = main_arg3 ∨ r = main_arg6 ∨ r = main_arg7 ∨ r = main_arg8 ∨ r = main_arg9) :
    W5 m ρ c (Proc.devRef .tc r) = m ((c : Thread nD τ).loc r) :=
  (s1_kept (W4 m ρ c) r h1).trans (arg4 m ρ c r hr hb)

/-- The second region's array: rectifier(first aggregation + first bias row) times the second weights. -/
theorem second6 : W6 m ρ c (Proc.devRef .tc main_v45)
    = rowsTimes (M := 100000) (relu (M := 100000) (addRow (M := 100000)
        (aggregate (F := Ideal) (rowsTimes (M := 100000) (m ((c : Thread nD τ).loc main_arg0)) (m ((c : Thread nD τ).loc main_arg4)))
          (srcIds (F := Ideal) (m ((c : Thread nD τ).loc main_arg1))) (dstIds (F := Ideal) (m ((c : Thread nD τ).loc main_arg1)))
          (edgeWeight (F := Ideal) (srcIds (F := Ideal) (m ((c : Thread nD τ).loc main_arg1))) (dstIds (F := Ideal) (m ((c : Thread nD τ).loc main_arg1)))))
        (shapeCast S1x32 (m ((c : Thread nD τ).loc main_arg5)) shapeCasts_S32_S1x32)))
      (m ((c : Thread nD τ).loc main_arg6)) := by
  refine (W6_arr m ρ c 3).trans ((Region1.array_eq (V5 m ρ) c).trans ?_)
  show rowsTimes (M := 100000) (relu (M := 100000) (addRow (M := 100000) (W5 m ρ c (Proc.devRef .tc main_v43)) (W5 m ρ c (Proc.devRef .tc main_v44))))
      (W5 m ρ c (Proc.devRef .tc main_arg6)) = _
  rw [agg5 m ρ c, bias5 m ρ c, arg5 m ρ c main_arg6 (by decide) (by decide) (by decide)]

theorem src6 : W6 m ρ c (Proc.devRef .tc main_v3) = srcIds (F := Ideal) (m ((c : Thread nD τ).loc main_arg1)) :=
  (W6_of_ne m ρ c main_v3 (by decide)).trans (src5 m ρ c)
theorem dst6 : W6 m ρ c (Proc.devRef .tc main_v6) = dstIds (F := Ideal) (m ((c : Thread nD τ).loc main_arg1)) :=
  (W6_of_ne m ρ c main_v6 (by decide)).trans (dst5 m ρ c)
theorem weight6 : W6 m ρ c (Proc.devRef .tc main_v29)
    = edgeWeight (F := Ideal) (srcIds (F := Ideal) (m ((c : Thread nD τ).loc main_arg1))) (dstIds (F := Ideal) (m ((c : Thread nD τ).loc main_arg1))) :=
  (W6_of_ne m ρ c main_v29 (by decide)).trans (weight5 m ρ c)
theorem arg6 (r : Ref sig .tc) (hr : r = main_arg0 ∨ r = main_arg2 ∨ r = main_arg3 ∨ r = main_arg4 ∨ r = main_arg5 ∨ r = main_arg6 ∨ r = main_arg7 ∨ r = main_arg8 ∨ r = main_arg9)
    (hb : ∀ w, Pipeline.arrRef spec0 w ≠ r) (h1 : r = main_arg2 ∨ r = main_arg3 ∨ r = main_arg6 ∨ r = main_arg7 ∨ r = main_arg8 ∨ r = main_arg9)
    (hb1 : ∀ w, Pipeline.arrRef spec1 w ≠ r) : W6 m ρ c (Proc.devRef .tc r) = m ((c : Thread nD τ).loc r) :=
  (W6_of_ne m ρ c r hb1).trans (arg5 m ρ c r hr hb h1)

/-! ## The second aggregation, the third region -/

/-- THE RESULT ARRAY: the last layer — (second aggregation + second bias row) + (neighbour features × adapter +
    previous-time features × adapter) — of the argument arrays. -/
theorem result : W8 m ρ c (Proc.devRef .tc main_v60)
    = fun i => addRow (M := 100000)
        (aggregate (F := Ideal)
          (rowsTimes (M := 100000) (relu (M := 100000) (addRow (M := 100000)
            (aggregate (F := Ideal) (rowsTimes (M := 100000) (m ((c : Thread nD τ).loc main_arg0)) (m ((c : Thread nD τ).loc main_arg4)))
              (srcIds (F := Ideal) (m ((c : Thread nD τ).loc main_arg1))) (dstIds (F := Ideal) (m ((c : Thread nD τ).loc main_arg1)))
              (edgeWeight (F := Ideal) (srcIds (F := Ideal) (m ((c : Thread nD τ).loc main_arg1))) (dstIds (F := Ideal) (m ((c : Thread nD τ).loc main_arg1)))))
            (shapeCast S1x32 (m ((c : Thread nD τ).loc main_arg5)) shapeCasts_S32_S1x32))) (m ((c : Thread nD τ).loc main_arg6)))
          (srcIds (F := Ideal) (m ((c : Thread nD τ).loc main_arg1))) (dstIds (F := Ideal) (m ((c : Thread nD τ).loc main_arg1)))
          (edgeWeight (F := Ideal) (srcIds (F := Ideal) (m ((c : Thread nD τ).loc main_arg1))) (dstIds (F := Ideal) (m ((c : Thread nD τ).loc main_arg1)))))
        (shapeCast S1x32 (m ((c : Thread nD τ).loc main_arg7)) shapeCasts_S32_S1x32) i
      + (rowsTimes (M := 100000) (m ((c : Thread nD τ).loc main_arg2)) (m ((c : Thread nD τ).loc main_arg8)) i
        + rowsTimes (M := 100000) (m ((c : Thread nD τ).loc main_arg3)) (m ((c : Thread nD τ).loc main_arg9)) i) := by
  have hagg : W7 m ρ c (Proc.devRef .tc main_v58) = _ := s2_agg (W6 m ρ c)
  have hbias : W7 m ρ c (Proc.devRef .tc main_v59) = _ := s2_bias (W6 m ρ c)
  have hnf : W7 m ρ c (Proc.devRef .tc main_arg2) = m ((c : Thread nD τ).loc main_arg2) :=
    (s2_nf (W6 m ρ c)).trans (arg6 m ρ c main_arg2 (by decide) (by decide) (by decide) (by decide))
  have hpf : W7 m ρ c (Proc.devRef .tc main_arg3) = m ((c : Thread nD τ).loc main_arg3) :=
    (s2_pf (W6 m ρ c)).trans (arg6 m ρ c main_arg3 (by decide) (by decide) (by decide) (by decide))
  have hWn : W7 m ρ c (Proc.devRef .tc main_arg8) = m ((c : Thread nD τ).loc main_arg8) :=
    (s2_Wn (W6 m ρ c)).trans (arg6 m ρ c main_arg8 (by decide) (by decide) (by decide) (by decide))
  have hWt : W7 m ρ c (Proc.devRef .tc main_arg9) = m ((c : Thread nD τ).loc main_arg9) :=
    (s2_Wt (W6 m ρ c)).trans (arg6 m ρ c main_arg9 (by decide) (by decide) (by decide) (by decide))
  refine (W8_arr m ρ c 6).trans ((Region2.array_eq (V7 m ρ) c).trans ?_)
  show Region2.lastLayer (W7 m ρ c (Proc.devRef .tc main_v58)) (W7 m ρ c (Proc.devRef .tc main_v59)) (W7 m ρ c (Proc.devRef .tc main_arg2))
      (W7 m ρ c (Proc.devRef .tc main_arg3)) (W7 m ρ c (Proc.devRef .tc main_arg8)) (W7 m ρ c (Proc.devRef .tc main_arg9)) = _
  rw [hagg, hbias, hnf, hpf, hWn, hWt, second6 m ρ c, src6 m ρ c, dst6 m ρ c, weight6 m ρ c,
    arg6 m ρ c main_arg7 (by decide) (by decide) (by decide) (by decide)]
  rfl

end Cert.KernelIdeal.Result

end
-- ==== Proof.Bridge.lean ====
/-
  The two programs compute one function.

  Read entry by entry on the extended reals, the reference's host product is `rowsTimes`; its bias laid along the rows and
  the kernel's bias reshaped to a 1 × 32 row and broadcast inside a block both add b(n) to entry (r, n); its rectifier is the
  maximum with the zero word's value. With the aggregations kept as the same whole-array functions on both sides, the
  kernel's result at entry i is
      (agg2 i + b2 n) + (nf·Wn i + pf·Wt i)
  and the reference's is
      ((agg2 i + b2 n) + nf·Wn i) + pf·Wt i,
  equal by associativity of addition, which holds on the extended reals without any finiteness assumption.
-/
import proofs.«174616_j43267500540335_1_alg».proof.Proof.RefStages
import proofs.«174616_j43267500540335_1_alg».proof.Proof.RowsTimes
import Idealize.ShloMosaic.PureOps.Ideal.Laws
import Idealize.ShloMosaic.Lib.ValueIdx
import Idealize.ShloMosaic.Lib.ValueLayout
import Idealize.ShloMosaic.Lib.Pipeline.Value

noncomputable section

namespace Cert.Gcn

open Cert.ReferenceIdeal Cert.ReferenceIdeal.Gen Cert.ReferenceIdeal.Stages Idealize.ShloMosaic Idealize.ShloMosaic.ValueIdx

/-- A bias vector added to every row: entry (r, n) becomes a(r, n) + b(n). -/
def addBias (a : S100000x32.Idx → EReal) (b : S32.Idx → EReal) : S100000x32.Idx → EReal :=
  fun i => a i + b (ix1 (⟨(i 1).val, (i 1).isLt⟩ : Fin 32))

/-! ## The host product is rows times weights -/

/-- The host product's record: 100000 × 32 by 32 × 32, contracting the rows' second axis with the weights' first. -/
abbrev wholeDot := dot_S100000x32_S32x32_S100000x32_1_0_0_1_n_n

theorem whole_lhs_row (i : S100000x32.Idx) (q : wholeDot.contr.Idx) : (wholeDot.lhsIdx i q 0).val = (i 0).val := by
  unfold DotDims.lhsIdx
  rw [dif_neg (show ¬(0 : Fin S100000x32.rank) ∈ wholeDot.lhsBatch by decide), dif_pos (show (0 : Fin S100000x32.rank) ∈ wholeDot.lhsNonContracting by decide)]
  rfl
theorem whole_lhs_contr (i : S100000x32.Idx) (q : wholeDot.contr.Idx) : (wholeDot.lhsIdx i q 1).val = (q ⟨0, by decide⟩).val :=
  wholeDot.lhsIdx_val_of_single rfl i q
theorem whole_rhs_contr (i : S100000x32.Idx) (q : wholeDot.contr.Idx) : (wholeDot.rhsIdx i q 0).val = (q ⟨0, by decide⟩).val :=
  wholeDot.rhsIdx_val_of_single rfl i q
theorem whole_rhs_col (i : S100000x32.Idx) (q : wholeDot.contr.Idx) : (wholeDot.rhsIdx i q 1).val = (i 1).val := by
  unfold DotDims.rhsIdx
  rw [dif_neg (show ¬(1 : Fin S32x32.rank) ∈ wholeDot.rhsBatch by decide), dif_pos (show (1 : Fin S32x32.rank) ∈ wholeDot.rhsNonContracting by decide)]
  rfl

/-- The host's product of all the rows with the weights is `rowsTimes`: at the ideal instance a `dot_general` is the plain sum
    over the contracted axis, which has 32 values. -/
theorem product_eq (l : (⟨S100000x32, .f32⟩ : BufTy).Contents (Elt Ideal)) (r : (⟨S32x32, .f32⟩ : BufTy).Contents (Elt Ideal)) :
    product (F := Ideal) l r = rowsTimes (M := 100000) l r := by
  funext i
  unfold product
  simp only [Host.dotGeneral]
  rw [Ideal.dotGeneral_apply, rowsTimes_apply, ← Equiv.sum_comp (contrEquiv1 wholeDot 32 rfl rfl).symm]
  refine Finset.sum_congr rfl fun k _ => ?_
  have hk := contrEquiv1_symm_val wholeDot 32 rfl rfl k
  have el : wholeDot.lhsIdx i ((contrEquiv1 wholeDot 32 rfl rfl).symm k) = rowAt i k := funext fun a => Fin.ext (by
    match a with
    | ⟨0, _⟩ => exact whole_lhs_row _ _
    | ⟨1, _⟩ => exact (whole_lhs_contr _ _).trans hk)
  have er : wholeDot.rhsIdx i ((contrEquiv1 wholeDot 32 rfl rfl).symm k) = colAt i k := funext fun a => Fin.ext (by
    match a with
    | ⟨0, _⟩ => exact (whole_rhs_contr _ _).trans hk
    | ⟨1, _⟩ => exact whole_rhs_col _ _)
  rw [el, er]

/-! ## The bias and the rectifier, entry by entry -/

/-- The reference's bias, broadcast first to a 1 × 32 row and then down all the rows, adds b(n) to entry (r, n). -/
theorem addf_biasRows (a : (⟨S100000x32, .f32⟩ : BufTy).Contents (Elt Ideal)) (b : (⟨S32, .f32⟩ : BufTy).Contents (Elt Ideal)) :
    (addf a (biasRows (F := Ideal) b) : FVec Ideal S100000x32 .f32) = addBias a b := by
  funext i
  unfold biasRows
  rw [addf_apply]
  have e1 : broadcastInDim S100000x32 ![0, 1] bcast_S1x32_S100000x32_0_1 (broadcastInDim S1x32 ![1] bcast_S32_S1x32_1 b) i
      = broadcastInDim S1x32 ![1] bcast_S32_S1x32_1 b (ix2 (0 : Fin 1) (⟨(i 1).val, (i 1).isLt⟩ : Fin 32)) :=
    broadcastInDim_apply _ _ _ i _ (fun a => by
      match a with
      | ⟨0, _⟩ => rfl
      | ⟨1, _⟩ => rfl)
  have e2 : broadcastInDim S1x32 ![1] bcast_S32_S1x32_1 b (ix2 (0 : Fin 1) (⟨(i 1).val, (i 1).isLt⟩ : Fin 32))
      = b (ix1 (⟨(i 1).val, (i 1).isLt⟩ : Fin 32)) :=
    broadcastInDim_apply _ _ _ _ _ (fun a => by
      match a with
      | ⟨0, _⟩ => rfl)
  rw [e1, e2]
  rfl

/-- The kernel's bias, reshaped on the host to a 1 × 32 row and added to every row of a block, adds the same b(n). -/
theorem addRow_reshape (a : S100000x32.Idx → EReal) (b : S32.Idx → EReal) (h : (⟨1, ![32]⟩ : Shape).ShapeCasts ⟨2, ![1, 32]⟩) :
    addRow (M := 100000) a (shapeCast ⟨2, ![1, 32]⟩ b h) = addBias a b := by
  funext i
  show a i + shapeCast ⟨2, ![1, 32]⟩ b h (ix2 (0 : Fin 1) (⟨(i 1).val, (i 1).isLt⟩ : Fin 32)) = a i + b (ix1 (⟨(i 1).val, (i 1).isLt⟩ : Fin 32))
  rw [shapeCast_a_1a_apply]

/-- The reference's rectifier is the maximum with the zero word's value, entry by entry. -/
theorem rectify_eq (z : (⟨S100000x32, .f32⟩ : BufTy).Contents (Elt Ideal)) : rectify (F := Ideal) z = relu (M := 100000) z := rfl

/-! ## The network -/

/-- THE BRIDGE. The kernel's composition — its three regions' whole-array functions around the two aggregations, the biases
    as reshaped rows — is the reference's network: the products, the biases and the rectifier agree entry by entry, the
    aggregations are the same functions of equal operands, and the last sum is re-associated. -/
theorem kernel_eq_network (x : (⟨S100000x32, .f32⟩ : BufTy).Contents (Elt Ideal)) (e : (⟨S2x1600000, .i32⟩ : BufTy).Contents (Elt Ideal))
    (nf pf : (⟨S100000x32, .f32⟩ : BufTy).Contents (Elt Ideal)) (W1 : (⟨S32x32, .f32⟩ : BufTy).Contents (Elt Ideal)) (b1 : (⟨S32, .f32⟩ : BufTy).Contents (Elt Ideal))
    (W2 : (⟨S32x32, .f32⟩ : BufTy).Contents (Elt Ideal)) (b2 : (⟨S32, .f32⟩ : BufTy).Contents (Elt Ideal)) (Wn Wt : (⟨S32x32, .f32⟩ : BufTy).Contents (Elt Ideal))
    (h1 h2 : (⟨1, ![32]⟩ : Shape).ShapeCasts ⟨2, ![1, 32]⟩) :
    (fun i => addRow (M := 100000)
        (aggregate (F := Ideal)
          (rowsTimes (M := 100000) (relu (M := 100000) (addRow (M := 100000)
            (aggregate (F := Ideal) (rowsTimes (M := 100000) x W1) (srcIds (F := Ideal) e) (dstIds (F := Ideal) e)
              (edgeWeight (F := Ideal) (srcIds (F := Ideal) e) (dstIds (F := Ideal) e)))
            (shapeCast ⟨2, ![1, 32]⟩ b1 h1))) W2)
          (srcIds (F := Ideal) e) (dstIds (F := Ideal) e) (edgeWeight (F := Ideal) (srcIds (F := Ideal) e) (dstIds (F := Ideal) e)))
        (shapeCast ⟨2, ![1, 32]⟩ b2 h2) i
      + (rowsTimes (M := 100000) nf Wn i + rowsTimes (M := 100000) pf Wt i))
    = network (F := Ideal) x e nf pf W1 b1 W2 b2 Wn Wt := by
  unfold network
  rw [product_eq x W1, addf_biasRows, rectify_eq, product_eq _ W2, addf_biasRows, product_eq nf Wn, product_eq pf Wt,
    addRow_reshape _ b1 h1, addRow_reshape _ b2 h2]
  funext i
  rw [addf_apply, addf_apply]
  exact (add_assoc _ _ _).symm

end Cert.Gcn

end
-- ==== Proof.lean ====
/-
  A two-layer graph convolution with two feature adapters, as three pipelined kernels around host gathers and
  scatter-additions, against the plain jnp reference.

  The network: out = A·relu(A·(x·W1) + b1)·W2 + b2 + nf·Wn + pf·Wt over 100000 nodes with 32 features, where A is the
  symmetric-normalised adjacency of 1600000 directed edges and one self loop per node, applied as "gather the source rows,
  scale by the pair weight, add into the target rows". The kernel computes the three dense stages — x·W1; relu(· + b1)·W2;
  · + b2 + nf·Wn + pf·Wt — each as a region over ten blocks of 10000 rows, and leaves the two applications of A and the pair
  weights to the host; the reference is one straight line of host operations.

  At the ideal instance (extended reals, exact operations, format changes the identity) the two programs compute the same
  function of the ten argument arrays:
    • every matrix product, blockwise in a region or whole on the host, is the sum over the contracted axis, and an entry
      depends on one row only, so the ten row blocks of a region tile the whole product (Region0, Region1, Region2, over the
      entry-by-entry payloads of Payloads and the specification RowsTimes);
    • the host stretches between the regions apply the reference's own gathers and scatter-additions to equal operands, so
      the aggregations are never opened (HostStretches over the reference's stages RefStages; the pair weights, which the
      reference computes once per layer and the kernel once, are one function of the edge array);
    • the biases, added as a reshaped row inside a block or broadcast on the host, and the rectifier agree entry by entry,
      and the last sum differs only by its bracketing: (a + b) + (p + q) against ((a + b) + p) + q (Bridge).
  Associativity and commutativity of addition hold on the extended reals as they are, so the precondition (finite inputs) is
  never opened. The idealisation rewrote no operation of the kernel, so `preserves` has no conjunct.

  The kernel's run with every buffer named is WholeRun (the regions' launch theorem over the generated segments); the
  result array as a function of the arguments is KernelResult; the reference's run is RefRun.
-/
import proofs.«174616_j43267500540335_1_alg».proof.Defs
import proofs.«174616_j43267500540335_1_alg».proof.Proof.Gen.Kernel
import proofs.«174616_j43267500540335_1_alg».proof.Proof.Gen.Kernel.Skeleton
import proofs.«174616_j43267500540335_1_alg».proof.Proof.Gen.Kernel.Launch
import proofs.«174616_j43267500540335_1_alg».proof.Proof.Gen.Kernel.Points
import proofs.«174616_j43267500540335_1_alg».proof.Proof.Gen.Kernel.Frame
import proofs.«174616_j43267500540335_1_alg».proof.Proof.Gen.KernelIdeal
import proofs.«174616_j43267500540335_1_alg».proof.Proof.Gen.KernelIdeal.Skeleton
import proofs.«174616_j43267500540335_1_alg».proof.Proof.Gen.KernelIdeal.Launch
import proofs.«174616_j43267500540335_1_alg».proof.Proof.Gen.KernelIdeal.Points
import proofs.«174616_j43267500540335_1_alg».proof.Proof.Gen.KernelIdeal.Frame
import proofs.«174616_j43267500540335_1_alg».proof.Proof.Gen.ReferenceIdeal
import proofs.«174616_j43267500540335_1_alg».proof.Proof.Gen.Pre_finite_inputs
import proofs.«174616_j43267500540335_1_alg».proof.Proof.WholeRun
import proofs.«174616_j43267500540335_1_alg».proof.Proof.KernelResult
import proofs.«174616_j43267500540335_1_alg».proof.Proof.RefRun
import proofs.«174616_j43267500540335_1_alg».proof.Proof.RefStages
import proofs.«174616_j43267500540335_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealisation rewrote nothing. -/
theorem preserves : Cert.preserves_Kernel_KernelIdeal := trivial

/-- Both programs end with the reference's network of the (agreeing) argument arrays in their result arrays. -/
theorem algebraic : Cert.algebraic_KernelIdeal_ReferenceIdeal := by
  intro m ρ m' ρ' _ hagree
  refine ⟨fun c => Cert.ReferenceIdeal.Stages.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · -- the kernel: its result array, read back through the boundaries, then the bridge
    refine (θ_run Cert.KernelIdeal.defs _ _).mono (fun r h c => ⟨(h c).1.trans ?_, (h c).2⟩)
      (Cert.KernelIdeal.WholeRun.run_result (F := Ideal) m ρ)
    exact (Cert.KernelIdeal.Result.result m ρ c).trans
      (Cert.Gcn.kernel_eq_network
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        Cert.KernelIdeal.Gen.shapeCasts_S32_S1x32 Cert.KernelIdeal.Gen.shapeCasts_S32_S1x32)
  · -- the reference: its run's composed term is the network of its own arguments, which agree with the kernel's
    refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8, a9⟩ := hagree c
    rw [Cert.ReferenceIdeal.Stages.res_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
